-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x64 : Shape := ⟨2, ![4194304, 64]⟩
abbrev S4194304 : Shape := ⟨1, ![4194304]⟩
abbrev S1x64 : Shape := ⟨2, ![1, 64]⟩
abbrev S1 : Shape := ⟨1, ![1]⟩
abbrev S_ : Shape := ⟨0, ![]⟩

class Facts : Prop where
  bcast_S_S4194304x64 : S_.BroadcastsInDim S4194304x64 (![] : Fin 0 → Fin S4194304x64.rank)
  reducesTo_S4194304x64_S_d0_1 : S4194304x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4194304x64 .f32) (main_arg1 : IVec S4194304 32) (main_arg2 : FVec F S1x64 .f32) (main_arg3 : FVec F S1 .f32) : IVec S_ 1 :=
  let main_v0 : FVec F S4194304x64 .f32 := Host.absf main_arg0
  let main_cst : FVec F S_ .f32 := constant S_ .f32 0x7F800000#32
  let main_v1 : FVec F S4194304x64 .f32 := broadcastInDim S4194304x64 ![] bcast_S_S4194304x64 main_cst
  let main_v2 : IVec S4194304x64 1 := cmpf .olt main_v0 main_v1
  let main_c : IVec S_ 1 := constantI S_ 1 1#1
  let main_v3 : IVec S_ 1 := (fun x v => Host.reduce IntOp.andi x v reducesTo_S4194304x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4194304x64 : Shape := ⟨2, ![4194304, 64]⟩
abbrev S4194304 : Shape := ⟨1, ![4194304]⟩
abbrev S1x64 : Shape := ⟨2, ![1, 64]⟩
abbrev S1 : Shape := ⟨1, ![1]⟩
abbrev S1x1 : Shape := ⟨2, ![1, 1]⟩
abbrev S32768x64 : Shape := ⟨2, ![32768, 64]⟩
abbrev S32768 : Shape := ⟨1, ![32768]⟩
abbrev S4194304x1 : Shape := ⟨2, ![4194304, 1]⟩
abbrev S_ : Shape := ⟨0, ![]⟩
abbrev S131072x1 : Shape := ⟨2, ![131072, 1]⟩
abbrev S131072 : Shape := ⟨1, ![131072]⟩

abbrev nBuf : Space → Nat
  | .hbm => 22
  | .vmem => 6
  | .smem => 0
  | _ => 0

abbrev bufTy : (tb : Table) → Fin (tcTables nBuf tb) → BufTy
  | .hbm, ⟨0, _⟩ => ⟨S4194304x64, .f32⟩
  | .hbm, ⟨1, _⟩ => ⟨S4194304, .i32⟩
  | .hbm, ⟨2, _⟩ => ⟨S1x64, .f32⟩
  | .hbm, ⟨3, _⟩ => ⟨S1, .f32⟩
  | .hbm, ⟨4, _⟩ => ⟨S1x1, .f32⟩
  | .hbm, ⟨5, _⟩ => ⟨S4194304, .f32⟩
  | .hbm, ⟨6, _⟩ => ⟨S4194304x1, .f32⟩
  | .hbm, ⟨7, _⟩ => ⟨S_, .f32⟩
  | .hbm, ⟨8, _⟩ => ⟨S131072x1, .f32⟩
  | .hbm, ⟨9, _⟩ => ⟨S4194304x1, .i32⟩
  | .hbm, ⟨10, _⟩ => ⟨S131072x1, .f32⟩
  | .hbm, ⟨11, _⟩ => ⟨S_, .f32⟩
  | .hbm, ⟨12, _⟩ => ⟨S4194304, .f32⟩
  | .hbm, ⟨13, _⟩ => ⟨S_, .f32⟩
  | .hbm, ⟨14, _⟩ => ⟨S131072, .f32⟩
  | .hbm, ⟨15, _⟩ => ⟨S4194304x1, .i32⟩
  | .hbm, ⟨16, _⟩ => ⟨S131072, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S131072x1, .f32⟩
  | .hbm, ⟨21, _⟩ => ⟨S131072x1, .f32⟩
  | .local _ .vmem, ⟨0, _⟩ => ⟨S32768x64, .f32⟩
  | .local _ .vmem, ⟨1, _⟩ => ⟨S32768x64, .f32⟩
  | .local _ .vmem, ⟨2, _⟩ => ⟨S1x64, .f32⟩
  | .local _ .vmem, ⟨3, _⟩ => ⟨S1x1, .f32⟩
  | .local _ .vmem, ⟨4, _⟩ => ⟨S32768, .f32⟩
  | .local _ .vmem, ⟨5, _⟩ => ⟨S32768, .f32⟩
  | _, _ => ⟨S4194304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S1x1 : S1.ShapeCasts S1x1
  inb_S32768x64_S32768x64_0_0 : ∀ a, (![0, 0] : Fin 2 → Nat) a + S32768x64.size a ≤ S32768x64.size a
  h_S32768x64 : 0 < S32768x64.numel
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x64_S32768x64 : S1x64.Broadcasts S32768x64
  reduces_S32768x64_S32768 : S32768x64.Reduces [1] S32768
  inb_S32768_S32768_0 : ∀ a, (![0] : Fin 1 → Nat) a + S32768.size a ≤ S32768.size a
  h_S32768 : 0 < S32768.numel
  shapeCasts_S4194304_S4194304x1 : S4194304.ShapeCasts S4194304x1
  bcast_S_S131072x1 : S_.BroadcastsInDim S131072x1 (![] : Fin 0 → Fin S131072x1.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S_S131072 : S_.BroadcastsInDim S131072 (![] : Fin 0 → Fin S131072.rank)
  bcast_S131072_S131072x1_0 : S131072.BroadcastsInDim S131072x1 (![0] : Fin 1 → Fin S131072x1.rank)
  scatter_S131072x1_S4194304x1_S4194304x1_1_0_0_1_wf : ScatterDims.WF S131072x1 S4194304x1 S4194304x1 [1] [0] [0] 1
  scatter_S131072_S4194304x1_S4194304_n_0_0_1_wf : ScatterDims.WF S131072 S4194304x1 S4194304 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S4194304x64.size a
  hwx0_0 : ∀ i : grid0.Coords, EltTy.bits .f32 = 32 ∨ (Rect.block (s := S4194304x64) S32768x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768.size a ≤ S4194304.size a
  hwx0_3 : ∀ i : grid0.Coords, EltTy.bits .f32 = 32 ∨ (Rect.block (s := S4194304) S32768.size (cc0_transform_3 i) (hinb0_3 i)).WholeWords (EltTy.packing .f32)

variable [Facts₀]

def scatter_S131072x1_S4194304x1_S4194304x1_1_0_0_1 : ScatterDims S131072x1 S4194304x1 S4194304x1 where
  updateWindowDims := [1]
  insertedWindowDims := [0]
  scatterDimsToOperandDims := [0]
  indexVectorDim := 1
  wf := scatter_S131072x1_S4194304x1_S4194304x1_1_0_0_1_wf
def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf

abbrev win0_0 : Pipeline.Window sig grid0 :=
  Pipeline.Window.ofSpec (Memref.whole main_arg0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x64 : Shape := ⟨2, ![4194304, 64]⟩
abbrev S4194304 : Shape := ⟨1, ![4194304]⟩
abbrev S1x64 : Shape := ⟨2, ![1, 64]⟩
abbrev S1 : Shape := ⟨1, ![1]⟩
abbrev S64x1 : Shape := ⟨2, ![64, 1]⟩
abbrev S4194304x1 : Shape := ⟨2, ![4194304, 1]⟩
abbrev S1x1 : Shape := ⟨2, ![1, 1]⟩
abbrev S_ : Shape := ⟨0, ![]⟩
abbrev S131072x1 : Shape := ⟨2, ![131072, 1]⟩
abbrev S131072 : Shape := ⟨1, ![131072]⟩

abbrev nBuf : Space → Nat
  | .hbm => 24
  | .vmem => 0
  | .smem => 0
  | _ => 0

abbrev bufTy : (tb : Table) → Fin (tcTables nBuf tb) → BufTy
  | .hbm, ⟨0, _⟩ => ⟨S4194304x64, .f32⟩
  | .hbm, ⟨1, _⟩ => ⟨S4194304, .i32⟩
  | .hbm, ⟨2, _⟩ => ⟨S1x64, .f32⟩
  | .hbm, ⟨3, _⟩ => ⟨S1, .f32⟩
  | .hbm, ⟨4, _⟩ => ⟨S64x1, .f32⟩
  | .hbm, ⟨5, _⟩ => ⟨S4194304x1, .f32⟩
  | .hbm, ⟨6, _⟩ => ⟨S1x1, .f32⟩
  | .hbm, ⟨7, _⟩ => ⟨S4194304x1, .f32⟩
  | .hbm, ⟨8, _⟩ => ⟨S4194304x1, .f32⟩
  | .hbm, ⟨9, _⟩ => ⟨S_, .f32⟩
  | .hbm, ⟨10, _⟩ => ⟨S131072x1, .f32⟩
  | .hbm, ⟨11, _⟩ => ⟨S4194304x1, .i32⟩
  | .hbm, ⟨12, _⟩ => ⟨S131072x1, .f32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S131072, .f32⟩
  | .hbm, ⟨17, _⟩ => ⟨S4194304x1, .i32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S131072x1, .f32⟩
  | .hbm, ⟨23, _⟩ => ⟨S131072x1, .f32⟩
  | _, _ => ⟨S4194304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  transposes_S1x64_S64x1_1_0 : S1x64.Transposes [1, 0] S64x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S131072x1 : S_.BroadcastsInDim S131072x1 (![] : Fin 0 → Fin S131072x1.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  bcast_S_S131072 : S_.BroadcastsInDim S131072 (![] : Fin 0 → Fin S131072.rank)
  bcast_S131072_S131072x1_0 : S131072.BroadcastsInDim S131072x1 (![0] : Fin 1 → Fin S131072x1.rank)
  dot_S4194304x64_S64x1_S4194304x1_1_0_0_1_n_n_wf : DotDims.WF S4194304x64 S64x1 S4194304x1 [1] [0] [0] [1] [] []
  scatter_S131072x1_S4194304x1_S4194304x1_1_0_0_1_wf : ScatterDims.WF S131072x1 S4194304x1 S4194304x1 [1] [0] [0] 1
  scatter_S131072_S4194304x1_S4194304_n_0_0_1_wf : ScatterDims.WF S131072 S4194304x1 S4194304 [] [0] [0] 1

variable [Facts₀]

def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def scatter_S131072x1_S4194304x1_S4194304x1_1_0_0_1 : ScatterDims S131072x1 S4194304x1 S4194304x1 where
  updateWindowDims := [1]
  insertedWindowDims := [0]
  scatterDimsToOperandDims := [0]
  indexVectorDim := 1
  wf := scatter_S131072x1_S4194304x1_S4194304x1_1_0_0_1_wf
def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf

class Facts : Prop extends Facts₀ where

variable [Facts]
-- ==== Proof.BodyRow.lean ====
/-
  The kernel body's one store, read at a row.

  At a grid point the body holds a [32768, 64] tile x of feature rows, the [1, 64] weight row w and the [1, 1] bias
  b. It multiplies every row by w (w broadcast down the rows), sums each row over its 64 lanes starting from the
  additive identity, and adds the bias splat over the rows. So row r of what it stores is
  (Σ_k x[r, k] · w[0, k]) + b[0, 0]: a lane sum is the sum over the dropped axis, a product and a sum act entry by
  entry, a broadcast row reads its one row, and an extracted scalar splat reads that scalar.
-/
import proofs.«100032_j3590592660136_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyRow

open Idealize.ShloMosaic Idealize.ShloMosaic.ValueIdx Cert.KernelIdeal Cert.KernelIdeal.Gen

/-- Over row `r` of the reduced vector, the index of the tile with lane `k` put back is `(r, k)`. -/
theorem lift_row (h : S32768x64.Reduces [1] S32768) (r : Fin 32768) (k : Fin 64) :
    h.lift (ix1 r) k = ix2 r k := by
  funext c
  apply Fin.ext
  match c with
  | ⟨0, _⟩ => rfl
  | ⟨1, _⟩ => rfl

/-- Row `r` of the stored vector: the row's inner product with the weight row, plus the bias. -/
theorem stored_row (x0 : Vec Ideal S32768x64 .f32) (x1 : Vec Ideal S1x64 .f32) (x2 : Vec Ideal S1x1 .f32) (r : Fin 32768) :
    k0_pay1 (F := Ideal) x0 x1 x2 (ix1 r)
      = (∑ k : Fin 64, x0 (ix2 r k) * x1 (ix2 (0 : Fin 1) k)) + x2 (ix2 (0 : Fin 1) (0 : Fin 1)) := by
  unfold k0_pay1
  refine (addf_apply _ _ (ix1 r)).trans ?_
  refine congrArg₂ (· + ·) ?_ ?_
  · refine (Ideal.multiReduction_add_single _ _ _ _ _ (ix1 r)).trans ?_
    refine Finset.sum_congr rfl fun k _ => ?_
    refine (congrArg _ (lift_row _ r k)).trans ?_
    refine (mulf_apply _ _ (ix2 r k)).trans ?_
    exact congrArg (x0 (ix2 r k) * ·) (broadcastTo_1b_ab_apply x1 _ r k)
  · exact congrArg x2 (funext fun a => Fin.ext (by match a with | ⟨0, _⟩ => rfl | ⟨1, _⟩ => rfl))

end Cert.KernelIdeal.BodyRow

end
-- ==== Proof.Energy.lean ====
/-
  The specification both programs meet, free of either program's text.

  Atom n of the batch carries 64 features x[n, ·]; a linear layer with one output maps them to the atom's
  energy  e[n] = (Σ_k x[n, k] · w[0, k]) + b.  Here the arrays hold extended reals and every operation is the
  exact one, so the sum over the 64 features needs no order and no rounding: it is a sum in a commutative monoid.
  The energies are stated three ways: one atom's (`atom`), all atoms' as a vector [N] (`vector`, what the
  grid of row tiles assembles) and as a column [N, 1] (`column`, the layout both programs return).
-/
import Idealize.ShloMosaic.PureOps.Ideal
import Idealize.ShloMosaic.Lib.ValueIdx

noncomputable section

namespace Cert.Energy

open Idealize.ShloMosaic Idealize.ShloMosaic.ValueIdx

/-- Atom `n`'s energy: the inner product of its feature row with the weight row, plus the bias. -/
def atom (x : (⟨2, ![4194304, 64]⟩ : Shape).Idx → EReal) (w : (⟨2, ![1, 64]⟩ : Shape).Idx → EReal) (b : EReal)
    (n : Fin 4194304) : EReal :=
  (∑ k : Fin 64, x (ix2 n k) * w (ix2 (0 : Fin 1) k)) + b

/-- All atoms' energies as a vector of length N. -/
def vector (x : (⟨2, ![4194304, 64]⟩ : Shape).Idx → EReal) (w : (⟨2, ![1, 64]⟩ : Shape).Idx → EReal) (b : EReal) :
    (⟨1, ![4194304]⟩ : Shape).Idx → EReal :=
  fun i => atom x w b ⟨(i 0).val, (i 0).isLt⟩

/-- All atoms' energies as a column [N, 1]. -/
def column (x : (⟨2, ![4194304, 64]⟩ : Shape).Idx → EReal) (w : (⟨2, ![1, 64]⟩ : Shape).Idx → EReal) (b : EReal) :
    (⟨2, ![4194304, 1]⟩ : Shape).Idx → EReal :=
  fun i => atom x w b ⟨(i 0).val, (i 0).isLt⟩

theorem vector_apply (x : (⟨2, ![4194304, 64]⟩ : Shape).Idx → EReal) (w : (⟨2, ![1, 64]⟩ : Shape).Idx → EReal) (b : EReal)
    (n : Fin 4194304) : vector x w b (ix1 n) = atom x w b n := rfl

theorem column_apply (x : (⟨2, ![4194304, 64]⟩ : Shape).Idx → EReal) (w : (⟨2, ![1, 64]⟩ : Shape).Idx → EReal) (b : EReal)
    (n : Fin 4194304) (u : Fin 1) : column x w b (ix2 n u) = atom x w b n := rfl

end Cert.Energy

end
-- ==== Proof.RegionArray.lean ====
/-
  From the grid's tiles to the whole vector of energies.

  The grid has 128 points. At point t the pipeline hands the body rows 32768·t … 32768·t + 32767 of the feature
  matrix (the row tile moves with t, its 64 columns stay), the whole weight row and the whole bias (their block
  index is 0 at every point), and writes back entries 32768·t … 32768·t + 32767 of the output vector. Row j of the
  tile is therefore atom 32768·t + j, so what the body stores at j (BodyRow) is that atom's energy (`tile_row`):
  what point t writes back is block t of ONE vector, the specification's energies of the arrays as the region
  finds them (`written_back`). The 128 blocks tile the vector — entry i lies in block i / 32768 (`cover`) — so after
  the run the output array IS that vector (`energies`).
-/
import proofs.«100032_j3590592660136_1_alg».proof.Proof.Gen.KernelIdeal.Frame
import proofs.«100032_j3590592660136_1_alg».proof.Proof.BodyRow
import proofs.«100032_j3590592660136_1_alg».proof.Proof.Energy
import Idealize.ShloMosaic.Lib.Pipeline.Value

set_option maxRecDepth 16384

noncomputable section

namespace Cert.KernelIdeal.RegionArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem offsets1 : (![0] : Fin 1 → Nat) = fun _ => 0 := funext fun a => by fin_cases a; rfl
theorem offsets2 : (![0, 0] : Fin 2 → Nat) = fun _ => 0 := funext fun a => by fin_cases a <;> rfl

/-- The printed index maps over the grid: the feature tile and the output block are the point's own, the weight row
    and the bias sit at block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- A tile whose row `r` is atom `32768·T + r` of `X`, with the whole weight row and bias: entry `j` of what the body
    stores is the energy of atom `32768·T + j`. -/
theorem tile_row (X : S4194304x64.Idx → EReal) (W : S1x64.Idx → EReal) (B : S1x1.Idx → EReal)
    (x0 : Vec Ideal S32768x64 .f32) (x1 : Vec Ideal S1x64 .f32) (x2 : Vec Ideal S1x1 .f32) (T : Nat)
    (h0 : ∀ (r : Fin 32768) (k : Fin 64) (n : Fin 4194304), n.val = T * 32768 + r.val → x0 (ix2 r k) = X (ix2 n k))
    (h1 : x1 = W) (h2 : x2 = B) (j : S32768.Idx) (i : S4194304.Idx) (hi : (i 0).val = T * 32768 + (j 0).val) :
    k0_pay1 (F := Ideal) x0 x1 x2 j = Energy.vector X W (B (ix2 (0 : Fin 1) (0 : Fin 1))) i := by
  subst h1 h2
  obtain ⟨r, rfl⟩ : ∃ r : Fin 32768, j = ix1 r := ⟨j 0, eq_ix1 j⟩
  rw [BodyRow.stored_row]
  unfold Energy.vector Energy.atom
  refine congrArg (· + _) (Finset.sum_congr rfl fun k _ => ?_)
  rw [h0 r k ⟨(i 0).val, (i 0).isLt⟩ hi]

/-- What point `t` writes back is block `t` of the energies of the arrays as the region finds them. -/
theorem written_back (c : Dev nD) (t : Fin cfg0.N) :
    (dats m 0 c).flushed 3 t = ((cfg0.win 3).blk t).view.read (Elt Ideal)
      (Energy.vector (V m c main_arg0) (V m c main_arg2) (V m c main_v0 (ix2 (0 : Fin 1) (0 : Fin 1)))) := by
  show (cfg0.win 3).cut (grid0.coords t) ((dats m 0 c).after 3 t) = _
  rw [after0_3]
  unfold out0_3
  rw [View.canon_unit_zero offsets1]
  simp only [View.ld_unit_zero (S := S32768x64) offsets2, View.ld_unit_zero (S := S1x64) offsets2,
    View.ld_unit_zero (S := S1x1) offsets2]
  obtain ⟨e00, e01, e10, e11, e20, e21, e3⟩ := block_indices t
  funext j
  show k0_pay1 (iblk m c 0 t) (iblk m c 1 t) (iblk m c 2 t) j
    = Energy.vector (V m c main_arg0) (V m c main_arg2) (V m c main_v0 (ix2 (0 : Fin 1) (0 : Fin 1)))
        (((cfg0.win 3).blk t).view.emb j)
  refine tile_row (V m c main_arg0) (V m c main_arg2) (V m c main_v0) _ _ _ t.val ?_ ?_ ?_ j _ ?_
  · intro r k n hn
    show V m c main_arg0 (((cfg0.win 0).blk t).view.emb (ix2 r k)) = V m c main_arg0 (ix2 n k)
    refine congrArg _ (funext fun a => Fin.ext ?_)
    match a with
    | ⟨0, _⟩ => show win0_0.index t (0 : Fin 2) * 32768 + 1 * r.val = n.val; omega
    | ⟨1, _⟩ => show win0_0.index t (1 : Fin 2) * 64 + 1 * k.val = k.val; omega
  · funext y
    show V m c main_arg2 (((cfg0.win 1).blk t).view.emb y) = V m c main_arg2 y
    refine congrArg _ (funext fun a => Fin.ext ?_)
    match a with
    | ⟨0, _⟩ => show win0_1.index t (0 : Fin 2) * 1 + 1 * (y 0).val = (y 0).val; omega
    | ⟨1, _⟩ => show win0_1.index t (1 : Fin 2) * 64 + 1 * (y 1).val = (y 1).val; omega
  · funext y
    show V m c main_v0 (((cfg0.win 2).blk t).view.emb y) = V m c main_v0 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 1 + 1 * (y 1).val = (y 1).val; omega
  · show win0_3.index t (0 : Fin 1) * 32768 + 1 * (j 0).val = t.val * 32768 + (j 0).val
    omega

/-- Entry `i` of the output vector is in point `t`'s block iff it lies in the block's 32768 entries. -/
theorem mem_block (t : Fin cfg0.N) (i : S4194304.Idx) :
    i ∈ ((cfg0.win 3).blk t).view.set ↔ ∀ a : Fin 1, win0_3.index t a * S32768.size a ≤ (i a).val
      ∧ (i a).val < win0_3.index t a * S32768.size a + S32768.size a := by
  show i ∈ ((View.whole main_v1).slice (win0_3.rect t)).set ↔ _
  rw [View.set_slice_whole, Rect.mem_set_unit]
  exact Iff.rfl

/-- Every entry is written back by some point: entry `i` by point `i / 32768`. -/
theorem cover (i : S4194304.Idx) :
    ∃ t : Fin cfg0.N, (cfg0.win 3).flush t = true ∧ i ∈ ((cfg0.win 3).blk t).view.set := by
  have hN : cfg0.N = 128 := N_0
  have hi : (i 0).val < 4194304 := (i 0).isLt
  have ht : (i 0).val / 32768 < cfg0.N := by rw [hN]; omega
  obtain ⟨-, -, -, -, -, -, e3⟩ := block_indices ⟨(i 0).val / 32768, ht⟩
  refine ⟨⟨(i 0).val / 32768, ht⟩, flush0_3 _, ?_⟩
  rw [mem_block]
  intro a
  match a with
  | ⟨0, _⟩ =>
    show win0_3.index ⟨(i 0).val / 32768, ht⟩ (0 : Fin 1) * 32768 ≤ (i 0).val
      ∧ (i 0).val < win0_3.index ⟨(i 0).val / 32768, ht⟩ (0 : Fin 1) * 32768 + 32768
    rw [e3]
    show (i 0).val / 32768 * 32768 ≤ (i 0).val ∧ (i 0).val < (i 0).val / 32768 * 32768 + 32768
    omega

/-- The output array after the run: the energies of the arrays as the region finds them. -/
theorem energies (c : Dev nD) :
    (dats m 0 c).arrAt 3 cfg0.N
      = Energy.vector (V m c main_arg0) (V m c main_arg2) (V m c main_v0 (ix2 (0 : Fin 1) (0 : Fin 1))) :=
  (dats m 0 c).arrAt_eq_of_cover 3 _ (fun t _ => written_back m c t) cover

end Cert.KernelIdeal.RegionArray

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.RefPool.lean ====
/-
  The reference's two results, as functions of its arguments.

  The reference forms the energies as one matrix product: the [N, 64] feature matrix times the transposed [64, 1]
  weight, plus the bias broadcast down the column. Entry (n, 0) of a matrix product over extended reals is the sum
  over the contracted axis, Σ_k x[n, k] · wᵀ[k, 0], and the transpose reads w[0, k]; the bias, taken from its
  one-entry vector through a [1, 1] array, reads b[0]. So the column is the specification's (`energies`).

  Both programs then pool the energies per crystal by the same chain of host operations (`segmentMean`): with
  ids[n] the crystal of atom n, scatter-add the column into 131072 zeroed slots (sums[s] = Σ_{ids[n] = s} e[n]),
  scatter-add ones likewise (counts[s]), and divide sums[s] by max(counts[s], 1). The chain is named here as ONE
  function of the column and the ids; the reference's first result is that function of its second
  (`voltage_eq`), and nothing below ever looks inside it.
-/
import proofs.«100032_j3590592660136_1_alg».proof.Proof.Gen.ReferenceIdeal.Read
import proofs.«100032_j3590592660136_1_alg».proof.Proof.Energy

noncomputable section

namespace Cert.ReferenceIdeal.Pool

open Idealize.ShloMosaic Idealize.ShloMosaic.ValueIdx Cert.ReferenceIdeal Cert.ReferenceIdeal.Gen Cert.ReferenceIdeal.Read

/-- Entry (n, u) of the reference's energy column: atom n's inner product with the weight row, plus the bias. -/
theorem energy_apply (x0 : (⟨S4194304x64, .f32⟩ : BufTy).Contents (Elt Ideal)) (x2 : (⟨S1x64, .f32⟩ : BufTy).Contents (Elt Ideal))
    (x3 : (⟨S1, .f32⟩ : BufTy).Contents (Elt Ideal)) (n : Fin 4194304) (u : Fin 1) :
    val_main_v4 (F := Ideal) x0 x2 x3 (ix2 n u)
      = (∑ k : Fin 64, x0 (ix2 n k) * x2 (ix2 (0 : Fin 1) k)) + x3 (ix1 (0 : Fin 1)) := by
  rw [val_main_v4_apply, val_main_v1_apply, val_main_v3_apply, val_main_v2_apply]
  refine (Ideal.addf_def _ _).trans ?_
  refine congrArg₂ (· + ·) (Finset.sum_congr rfl fun k _ => ?_) ?_
  · rw [val_main_v0_apply]
    have e1 : lidx_main_v1 (ix2 n u) k = ix2 n k :=
      funext fun a => Fin.ext (by match a with | ⟨0, _⟩ => rfl | ⟨1, _⟩ => rfl)
    have e2 : idx_main_v0 (ridx_main_v1 (ix2 n u) k) = ix2 (0 : Fin 1) k :=
      funext fun a => Fin.ext (by
        match a with
        | ⟨0, _⟩ => show u.val = 0; omega
        | ⟨1, _⟩ => rfl)
    rw [e1, e2]
  · exact congrArg x3 (funext fun a => Fin.ext (by match a with | ⟨0, _⟩ => rfl))

/-- The reference's energy column is the specification's. -/
theorem energies (x0 : (⟨S4194304x64, .f32⟩ : BufTy).Contents (Elt Ideal)) (x2 : (⟨S1x64, .f32⟩ : BufTy).Contents (Elt Ideal))
    (x3 : (⟨S1, .f32⟩ : BufTy).Contents (Elt Ideal)) :
    val_main_v4 (F := Ideal) x0 x2 x3 = Energy.column x0 x2 (x3 (ix1 (0 : Fin 1))) := by
  funext i
  obtain ⟨n, u, rfl⟩ : ∃ (n : Fin 4194304) (u : Fin 1), i = ix2 n u := ⟨i 0, i 1, eq_ix2 i⟩
  rw [energy_apply, Energy.column_apply]
  rfl

/-- The per-crystal mean of a column of energies: the column scatter-added by crystal id into zeroed slots, over the
    count of each crystal's atoms (ones scatter-added the same way) raised to at least one. -/
def segmentMean (e : (⟨S4194304x1, .f32⟩ : BufTy).Contents (Elt Ideal)) (ids : (⟨S4194304, .i32⟩ : BufTy).Contents (Elt Ideal)) :
    (⟨S131072x1, .f32⟩ : BufTy).Contents (Elt Ideal) :=
  Host.divf (F := Ideal)
    (Host.scatterAdd (F := Ideal) scatter_S131072x1_S4194304x1_S4194304x1_1_0_0_1
      (broadcastInDim S131072x1 ![] bcast_S_S131072x1 (constant (F := Ideal) S_ .f32 0x00000000#32))
      (broadcastInDim S4194304x1 ![0] bcast_S4194304_S4194304x1_0 ids) e)
    (broadcastInDim S131072x1 ![0] bcast_S131072_S131072x1_0
      (maximumf (F := Ideal)
        (Host.scatterAdd (F := Ideal) scatter_S131072_S4194304x1_S4194304_n_0_0_1
          (broadcastInDim S131072 ![] bcast_S_S131072 (constant (F := Ideal) S_ .f32 0x00000000#32))
          (broadcastInDim S4194304x1 ![0] bcast_S4194304_S4194304x1_0 ids)
          (broadcastInDim S4194304 ![] bcast_S_S4194304 (constant (F := Ideal) S_ .f32 0x3F800000#32)))
        (broadcastInDim S131072 ![] bcast_S_S131072 (constant (F := Ideal) S_ .f32 0x3F800000#32))))

/-- The reference's pooled result is the per-crystal mean of its energy column. -/
theorem voltage_eq (x0 : (⟨S4194304x64, .f32⟩ : BufTy).Contents (Elt Ideal)) (x1 : (⟨S4194304, .i32⟩ : BufTy).Contents (Elt Ideal))
    (x2 : (⟨S1x64, .f32⟩ : BufTy).Contents (Elt Ideal)) (x3 : (⟨S1, .f32⟩ : BufTy).Contents (Elt Ideal)) :
    val_main_v15 (F := Ideal) x0 x1 x2 x3 = segmentMean (val_main_v4 (F := Ideal) x0 x2 x3) x1 := rfl

end Cert.ReferenceIdeal.Pool

end
-- ==== Proof.KernelResults.lean ====
/-
  The kernel program's two results, read through the host lines around the region.

  Before the region one host line recasts the one-entry bias vector as a [1, 1] array, so the bias the region finds at
  (0, 0) is b[0] (`bias_entry`); the feature matrix and the weight row reach the region as launched. With the
  region's output vector at the specification's energies (RegionArray), the first line after the region recasts that
  vector [N] as a column [N, 1] — a cast keeps row-major positions, so entry (n, 0) is entry n (`column_of_vector`) —
  and this column is the program's second result (`energy_column`). The remaining lines pool the column per crystal:
  they are, operation for operation, the chain the reference applies to ITS column, so the first result is that one
  function (`segmentMean`) of the column and of the crystal ids, which no line writes (`pooled`): equal columns go in,
  and the chain is never opened. `run` puts both results and the unchanged arguments under one run.
-/
import proofs.«100032_j3590592660136_1_alg».proof.Proof.RegionArray
import proofs.«100032_j3590592660136_1_alg».proof.Proof.LibKeepdims
import proofs.«100032_j3590592660136_1_alg».proof.Proof.RefPool
import Idealize.ShloMosaic.Lib.StableHlo.Run

set_option maxRecDepth 16384

noncomputable section

namespace Cert.KernelIdeal.Results

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The bias as the region finds it: entry (0, 0) of the recast array is the launched vector's one entry. -/
theorem bias_entry (c : Dev nD) :
    V m c main_v0 (ix2 (0 : Fin 1) (0 : Fin 1)) = m ((c : Thread nD τ).loc main_arg3) (ix1 (0 : Fin 1)) := by
  have e : (V m c main_v0 : S1x1.Idx → EReal) = shapeCast S1x1 (m ((c : Thread nD τ).loc main_arg3)) shapeCasts_S1_S1x1 := by
    show StableHlo.after hostOps0 (fun b => m (c, b)) (Proc.devRef .tc main_v0) = _
    after_results
    rfl
  rw [e]
  exact LibKeepdims.shapeCast_a_a1_apply _ _ (0 : Fin 1) (0 : Fin 1)

/-- The region's output array, as the lines after it find it: the energies of the launched arrays. -/
theorem region_output (c : Dev nD) :
    Pipeline.withArrays (cfgs 0).spec c (V0 m c) (fun w => (dats m 0 c).arrAt w (cfgs 0).N) (Proc.devRef .tc main_v1)
      = Energy.vector (m ((c : Thread nD τ).loc main_arg0)) (m ((c : Thread nD τ).loc main_arg2))
          (m ((c : Thread nD τ).loc main_arg3) (ix1 (0 : Fin 1))) := by
  refine (Pipeline.withArrays_arr spec0 launch0.win.arr_inj c _ _ 3).trans ?_
  refine (RegionArray.energies m c).trans ?_
  rw [V_main_arg0, V_main_arg2, bias_entry]

/-- The vector of energies recast as a column is the column of energies. -/
theorem column_of_vector (x : S4194304x64.Idx → EReal) (w : S1x64.Idx → EReal) (b : EReal) :
    shapeCast S4194304x1 (Energy.vector x w b) shapeCasts_S4194304_S4194304x1 = Energy.column x w b := by
  funext i
  obtain ⟨n, u, rfl⟩ : ∃ (n : Fin 4194304) (u : Fin 1), i = ix2 n u := ⟨i 0, i 1, eq_ix2 i⟩
  rw [LibKeepdims.shapeCast_a_a1_apply, Energy.vector_apply, Energy.column_apply]

/-- The program's second result: the column of energies. -/
theorem energy_column (c : Dev nD) :
    Pipeline.afterTail₀ cfgs (dats m) 0 (V0 m) [hostOps1] c main_v2
      = Energy.column (m ((c : Thread nD τ).loc main_arg0)) (m ((c : Thread nD τ).loc main_arg2))
          (m ((c : Thread nD τ).loc main_arg3) (ix1 (0 : Fin 1))) := by
  unfold Pipeline.afterTail₀
  show StableHlo.after hostOps1 _ (Proc.devRef .tc main_v2) = _
  after_results
  rw [region_output m c]
  exact column_of_vector _ _ _

/-- The program's first result: the per-crystal mean of that column, by the chain both programs share. -/
theorem pooled (c : Dev nD) :
    Pipeline.afterTail₀ cfgs (dats m) 0 (V0 m) [hostOps1] c main_v13
      = Cert.ReferenceIdeal.Pool.segmentMean (Energy.column (m ((c : Thread nD τ).loc main_arg0)) (m ((c : Thread nD τ).loc main_arg2))
          (m ((c : Thread nD τ).loc main_arg3) (ix1 (0 : Fin 1)))) (m ((c : Thread nD τ).loc main_arg1)) := by
  unfold Pipeline.afterTail₀
  show StableHlo.after hostOps1 _ (Proc.devRef .tc main_v13) = _
  after_results
  have hids : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [hids, region_output m c]
  unfold ReferenceIdeal.Pool.segmentMean
  refine congrArg (fun e => Host.divf (F := Ideal) (Host.scatterAdd (F := Ideal) _ _ _ e) _) ?_
  exact column_of_vector _ _ _

/-- Every weakly fair execution of the program ends with both results at these functions of the launched arrays, and
    the arguments as launched. -/
theorem run : θ_run defs (onTc (τ := τ) (main (F := Ideal))) ⟨m, fun _ => 0, ρ⟩ fun r => ∀ c : Dev nD,
      r.2.mem ((c.tc : Thread nD τ).loc main_v13)
        = Cert.ReferenceIdeal.Pool.segmentMean (Energy.column (m ((c : Thread nD τ).loc main_arg0)) (m ((c : Thread nD τ).loc main_arg2))
            (m ((c : Thread nD τ).loc main_arg3) (ix1 (0 : Fin 1)))) (m ((c : Thread nD τ).loc main_arg1))
      ∧ r.2.mem ((c.tc : Thread nD τ).loc main_v2)
        = Energy.column (m ((c : Thread nD τ).loc main_arg0)) (m ((c : Thread nD τ).loc main_arg2))
            (m ((c : Thread nD τ).loc main_arg3) (ix1 (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v13 (Pipeline.mem_restRefs_of main_v13 (by decide) (by decide))).trans (pooled m c),
      ((h c).2 main_v2 (Pipeline.mem_restRefs_of main_v2 (by decide) (by decide))).trans (energy_column m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Results

end
-- ==== Proof.lean ====
/-
  The kernel and its reference compute the same two arrays over the extended reals.

  Both programs take atom features x [N, 64], crystal ids [N], a weight row w [1, 64] and a bias b [1], and return the
  per-crystal mean energy [131072, 1] and the per-atom energy column [N, 1], where atom n's energy is
  (Σ_k x[n, k] · w[0, k]) + b[0].

  The kernel program tiles the atoms into 128 blocks of 32768 rows; on each tile it multiplies by the broadcast weight
  row, sums the 64 lanes and adds the bias, and the blocks assemble the vector of energies (BodyRow, RegionArray); host
  lines recast it as a column and pool it per crystal (KernelResults). The reference takes the same sums as one matrix
  product with the transposed weight and adds the broadcast bias (RefPool). Over extended reals a lane sum from the
  additive identity and a matrix product's entry are the same finite sum of the same products in the same order of
  factors, so the two columns agree entry by entry with no appeal to finiteness; the pooling is one shared function of
  the column and the ids, so the pooled results agree because the columns do. The idealization rewrote nothing, so it
  is preserved trivially, and each program's frame is its run with the results dropped.
-/
import proofs.«100032_j3590592660136_1_alg».proof.Defs
import proofs.«100032_j3590592660136_1_alg».proof.Proof.Gen.Kernel
import proofs.«100032_j3590592660136_1_alg».proof.Proof.Gen.Kernel.Skeleton
import proofs.«100032_j3590592660136_1_alg».proof.Proof.Gen.Kernel.Launch
import proofs.«100032_j3590592660136_1_alg».proof.Proof.Gen.Kernel.Points
import proofs.«100032_j3590592660136_1_alg».proof.Proof.Gen.Kernel.Frame
import proofs.«100032_j3590592660136_1_alg».proof.Proof.Gen.KernelIdeal
import proofs.«100032_j3590592660136_1_alg».proof.Proof.Gen.KernelIdeal.Skeleton
import proofs.«100032_j3590592660136_1_alg».proof.Proof.Gen.KernelIdeal.Launch
import proofs.«100032_j3590592660136_1_alg».proof.Proof.Gen.KernelIdeal.Points
import proofs.«100032_j3590592660136_1_alg».proof.Proof.Gen.KernelIdeal.Frame
import proofs.«100032_j3590592660136_1_alg».proof.Proof.Gen.ReferenceIdeal
import proofs.«100032_j3590592660136_1_alg».proof.Proof.Gen.ReferenceIdeal.Run
import proofs.«100032_j3590592660136_1_alg».proof.Proof.Gen.ReferenceIdeal.Read
import proofs.«100032_j3590592660136_1_alg».proof.Proof.Gen.Pre_finite_inputs
import proofs.«100032_j3590592660136_1_alg».proof.Proof.KernelResults
import proofs.«100032_j3590592660136_1_alg».proof.Proof.RefPool
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, both programs end with the per-crystal means at the pooling of the
    specification's energy column and with that column itself: the kernel program by its run read through the region
    and the host lines, the reference because its matrix product plus bias is the same column and its pooled result
    the same function of it. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ?_) (Cert.ReferenceIdeal.Value.run (F := Ideal) m' ρ')
  obtain ⟨h15, h4, hargs⟩ := h c
  obtain ⟨a0, a1, a2, a3⟩ := hagree c
  refine ⟨h15.trans ?_, h4.trans ?_, hargs⟩
  · refine (Cert.ReferenceIdeal.Read.val_main_v15_eq _ _ _ _).trans ?_
    refine (Cert.ReferenceIdeal.Pool.voltage_eq _ _ _ _).trans ?_
    rw [Cert.ReferenceIdeal.Pool.energies, a0, a1, a2, a3]
  · refine (Cert.ReferenceIdeal.Read.val_main_v4_eq _ _ _).trans ?_
    rw [Cert.ReferenceIdeal.Pool.energies, a0, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
